-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x128 .f32) (main_arg2 : FVec F S1600000 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S1600000 : Shape := ⟨1, ![1600000]⟩
abbrev S10000x128 : Shape := ⟨2, ![10000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named.

  @main is three segments: the matmul region, one stretch of host operations (the gather by source node,
  the product with the edge weight, the scatter-add by target node), and the relu region. The buffer contents at the
  segment boundaries are a fold from the launch memory; `W3` is the last boundary's. Every weakly fair execution
  terminates, and in its final memory every unscoped buffer holds what `W3` says: so the result buffer holds
  `W3` at the result's reference, and each argument buffer what it held at launch.
-/
import proofs.«104583_j21792664060532_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its three segments, read at the result and at the arguments: the result buffer ends at the
    last boundary's contents, the argument buffers as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Whole

end
-- ==== Proof.Spec.lean ====
/-
  The dense product the graph convolution starts from, and the rectifier it ends with, index by index.

  `support = features · weight`: entry (n, j) of the support is the sum over the 128 input channels k of
  features (n, k) times weight (k, j), on the extended reals. A sum of extended reals does not depend on the order or
  grouping of its terms, so the kernel's row blocks and the reference's single product agree on it.
-/
import Idealize.ShloMosaic.PureOps.Ideal
import Idealize.ShloMosaic.Lib.ValueIdx

noncomputable section

namespace Cert.GraphConv

open Idealize.ShloMosaic

/-- Node-indexed arrays of 128 channels: the features, the support, the aggregate and the result. -/
abbrev Nodes : Shape := ⟨2, ![100000, 128]⟩
/-- The weight matrix. -/
abbrev Weights : Shape := ⟨2, ![128, 128]⟩

/-- The feature entry entering term `k` of the support at `i`: node `i 0`, input channel `k`. -/
abbrev featAt (i : Nodes.Idx) (k : Fin 128) : Nodes.Idx := fun a => match a with
  | ⟨0, _⟩ => ⟨(i 0).val, (i 0).isLt⟩
  | ⟨1, _⟩ => ⟨k.val, k.isLt⟩

/-- The weight entry entering term `k` of the support at `i`: input channel `k`, output channel `i 1`. -/
abbrev weightAt (i : Nodes.Idx) (k : Fin 128) : Weights.Idx := fun a => match a with
  | ⟨0, _⟩ => ⟨k.val, k.isLt⟩
  | ⟨1, _⟩ => ⟨(i 1).val, (i 1).isLt⟩

/-- The support: the features times the weight, as the sum over the input channels. -/
def support (x : Nodes.Idx → EReal) (w : Weights.Idx → EReal) : Nodes.Idx → EReal :=
  fun i => ∑ k : Fin 128, x (featAt i k) * w (weightAt i k)

/-- The rectifier, entry by entry: the larger of the entry and zero (zero as the value of the all-zero word), for
    any float values. -/
def relu {F : FTy → Type} [FloatOps F] (x : Nodes.Idx → F .f32) : Nodes.Idx → F .f32 :=
  fun i => FloatOps.maximumf (x i) (FloatOps.ofBits .f32 0x00000000#32)

end Cert.GraphConv

end
-- ==== Proof.Support.lean ====
/-
  The matmul region: the support array it leaves.

  Grid point `t` loads rows `10000·t … 10000·t + 9999` of the features and the whole weight, multiplies them into a
  zero accumulator, and writes the product back as the same rows of the support. The format change on the operands
  is the identity on the extended reals, so entry (r, j) of the block is the sum over k of features (10000·t + r, k)
  times weight (k, j): the block of `GraphConv.support` at point `t`. The ten blocks tile the array, so the region
  leaves the support of the arrays it found.
-/
import proofs.«104583_j21792664060532_1_alg».proof.Proof.Gen.KernelIdeal.Frame
import proofs.«104583_j21792664060532_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Support

open Cert.KernelIdeal Cert.KernelIdeal.Gen Cert.GraphConv
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an entry of the block -/

/-- Inside a block: the left operand's entry of term `k` at `y` (row `y 0`, column `k`). -/
abbrev lrow (y : S10000x128.Idx) (k : Fin 128) : S10000x128.Idx := fun a => match a with
  | ⟨0, _⟩ => ⟨(y 0).val, (y 0).isLt⟩
  | ⟨1, _⟩ => ⟨k.val, k.isLt⟩
/-- The right operand's entry of term `k` at `y` (row `k`, column `y 1`). -/
abbrev rcol (y : S10000x128.Idx) (k : Fin 128) : S128x128.Idx := fun a => match a with
  | ⟨0, _⟩ => ⟨k.val, k.isLt⟩
  | ⟨1, _⟩ => ⟨(y 1).val, (y 1).isLt⟩

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at `y`: the sum over the contracted axis of the loaded blocks' products (the format
    change of the operands is the identity, the accumulator is zero). -/
theorem pay_apply (x0 : Vec Ideal S10000x128 .f32) (x1 : Vec Ideal S128x128 .f32) (y : S10000x128.Idx) :
    k0_pay1 (F := Ideal) x0 x1 y = ∑ k : Fin 128, x0 (lrow y k) * x1 (rcol y k) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx y ((ValueIdx.contrEquiv1 dot_S10000x128_S128x128_S10000x128_1_0_0_1_n_n 128 rfl rfl).symm k) = lrow y k := funext fun a => Fin.ext (by
    match a with
    | ⟨0, _⟩ => exact lhs_0 _ _
    | ⟨1, _⟩ => exact (lhs_1 _ _).trans hk)
  have er : dot_S10000x128_S128x128_S10000x128_1_0_0_1_n_n.rhsIdx y ((ValueIdx.contrEquiv1 dot_S10000x128_S128x128_S10000x128_1_0_0_1_n_n 128 rfl rfl).symm k) = rcol y k := funext fun a => Fin.ext (by
    match a with
    | ⟨0, _⟩ => exact (rhs_0 _ _).trans hk
    | ⟨1, _⟩ => exact rhs_1 _ _)
  rw [el, er]
  rfl

/-! ## The block a point writes back, the cover, the array -/

-- the TensorCore's buffer contents when the region is entered
variable (V : (c : Dev nD) → (b : Ref sig .tc) → Buf (Elt Ideal) ((c : Thread nD τ).loc b))

/-- The printed index maps over the grid: at point `t` the features' block and the support's block are row block `t`
    (column block 0), and the weight's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the support of the arrays the region found. -/
theorem flushed_eq (c : Dev nD) (t : Fin cfg0.N) :
    (dat0 V c).flushed 2 t = ((cfg0.win 2).blk t).view.read (Elt Ideal)
      (support (V c main_arg0 : S100000x128.Idx → Elt Ideal .f32) (V c main_arg1 : S128x128.Idx → Elt Ideal .f32)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext y
  show k0_pay1 (F := Ideal) (iblk0 V c 0 t) (iblk0 V c 1 t) y
    = support (V c main_arg0 : S100000x128.Idx → Elt Ideal .f32) (V c main_arg1 : S128x128.Idx → Elt Ideal .f32) (((cfg0.win 2).blk t).view.emb y)
  refine (pay_apply (iblk0 V c 0 t) (iblk0 V c 1 t) y).trans ?_
  unfold support
  refine Finset.sum_congr rfl fun k _ => ?_
  have h0 : ((cfg0.win 0).blk t).view.emb (lrow y k) = featAt (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (rcol y k) = weightAt (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  have key : ∀ (A : S100000x128.Idx → EReal) (B : S128x128.Idx → EReal),
      A (((cfg0.win 0).blk t).view.emb (lrow y k)) * B (((cfg0.win 1).blk t).view.emb (rcol y k))
        = A (featAt (((cfg0.win 2).blk t).view.emb y) k) * B (weightAt (((cfg0.win 2).blk t).view.emb y) k) := by
    intro A B; rw [h0, h1]
  exact key (V c main_arg0) (V c main_arg1)

/-- An index of the support is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `r` of the support is written by point `r / 10000`: the ten row blocks tile the array. -/
theorem cover (i : S100000x128.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  let t : Fin cfg0.N := ⟨(i 0).val / 10000, by rw [hN]; omega⟩
  obtain ⟨-, -, -, -, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the matmul region leaves: the support of the features and the weight as the region found them. -/
theorem final (c : Dev nD) : (dat0 V c).arrAt 2 cfg0.N
    = support (V c main_arg0 : S100000x128.Idx → Elt Ideal .f32) (V c main_arg1 : S128x128.Idx → Elt Ideal .f32) :=
  (dat0 V c).arrAt_eq_of_cover 2 _ (fun t _ => flushed_eq V c t) cover

end Cert.KernelIdeal.Support

end
-- ==== Proof.Aggregate.lean ====
/-
  The message passing both programs share, as one function of the support.

  Each edge e reads row `edge_col e` of the support (a negative index counted from the end, as array indexing
  does), scales it by `edge_val e`, and adds it into row `edge_row e` of a zero array. Both programs perform
  these host operations with the same operands and the same constants; they differ only in how the support was
  computed before and how the rectifier is applied after. So the stretch is stated once, as a function of the
  support and the three edge arrays, and neither the gather nor the scatter-add is ever opened: equal supports give
  equal aggregates.
-/
import proofs.«104583_j21792664060532_1_alg».proof.Proof.Gen.ReferenceIdeal
import proofs.«104583_j21792664060532_1_alg».proof.Proof.Spec

noncomputable section

namespace Cert.GraphConv

open Cert.ReferenceIdeal Cert.ReferenceIdeal.Gen Idealize.ShloMosaic

variable {F : FTy → Type} [FloatOps F]

/-- The aggregated messages: for every node the sum, over the edges into it, of the edge's weight times the support
    row of the edge's source. -/
def aggregate (s : (⟨S100000x128, .f32⟩ : BufTy).Contents (Elt F)) (ev : (⟨S1600000, .f32⟩ : BufTy).Contents (Elt F))
    (er ec : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 er)
    (mulf (broadcastInDim S1600000x128 ![0, 1] bcast_S1600000x1_S1600000x128_0_1 (broadcastInDim S1600000x1 ![0] bcast_S1600000_S1600000x1_0 ev))
      (Host.gather gather_S100000x128_S1600000x1_S1600000x128_1_0_n_n_0_1_1128 s
        (broadcastInDim S1600000x1 ![0] bcast_S1600000_S1600000x1_0
          (select (cmpi .slt ec (broadcastInDim S1600000 ![] bcast_S_S1600000 (constantI S_ 32 0#32)))
            (addi ec (broadcastInDim S1600000 ![] bcast_S_S1600000 (constantI S_ 32 100000#32))) ec))))

/-- The graph convolution on the extended reals: the rectified aggregate of the support of the features and the
    weight. Both programs' results are this function of the five argument arrays. -/
def graphConv (x : (⟨S100000x128, .f32⟩ : BufTy).Contents (Elt Ideal)) (w : (⟨S128x128, .f32⟩ : BufTy).Contents (Elt Ideal))
    (ev : (⟨S1600000, .f32⟩ : BufTy).Contents (Elt Ideal)) (er ec : (⟨S1600000, .i32⟩ : BufTy).Contents (Elt Ideal)) :
    (⟨S100000x128, .f32⟩ : BufTy).Contents (Elt Ideal) :=
  relu (aggregate (support x w) ev er ec)

end Cert.GraphConv

end
-- ==== Proof.Middle.lean ====
/-
  Between the two regions: what the relu region finds in its input array.

  After the matmul region the support's buffer holds what the region left and every other buffer is as launched. The
  host stretch then computes the aggregated messages from that support and the three edge arrays, which no region and
  no host operation writes. So the relu region's input is `GraphConv.aggregate` of the array the matmul region left
  and of the edge arrays as launched. This holds for any float values: the gather and the scatter-add are not opened.
-/
import proofs.«104583_j21792664060532_1_alg».proof.Proof.Gen.KernelIdeal.Frame
import proofs.«104583_j21792664060532_1_alg».proof.Proof.Aggregate
import Idealize.ShloMosaic.Lib.StableHlo.Run

set_option maxRecDepth 16384

noncomputable section

namespace Cert.KernelIdeal.Middle

open Cert.KernelIdeal Cert.KernelIdeal.Gen Cert.GraphConv
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge weights are not an array of the matmul region: after it they are as launched. -/
theorem W1_arg2 (c : Dev nD) : W1 m ρ c (Proc.devRef .tc main_arg2) = m ((c.tc : Thread nD τ).loc main_arg2) :=
  W1_of_ne m ρ c main_arg2 (by decide)
/-- Nor are the edges' target nodes. -/
theorem W1_arg3 (c : Dev nD) : W1 m ρ c (Proc.devRef .tc main_arg3) = m ((c.tc : Thread nD τ).loc main_arg3) :=
  W1_of_ne m ρ c main_arg3 (by decide)
/-- Nor the edges' source nodes. -/
theorem W1_arg4 (c : Dev nD) : W1 m ρ c (Proc.devRef .tc main_arg4) = m ((c.tc : Thread nD τ).loc main_arg4) :=
  W1_of_ne m ρ c main_arg4 (by decide)

/-- The relu region's input array when the region is entered: the aggregate of the support the matmul region left. -/
theorem entry (c : Dev nD) : V2 m ρ c main_v13
    = aggregate (W1 m ρ c (Proc.devRef .tc main_v0)) (m ((c.tc : Thread nD τ).loc main_arg2))
        (m ((c.tc : Thread nD τ).loc main_arg3)) (m ((c.tc : Thread nD τ).loc main_arg4)) := by
  show StableHlo.after hostOps1 (W1 m ρ c) (Proc.devRef .tc main_v13) = _
  after_results
  rw [W1_arg2 m ρ c, W1_arg3 m ρ c, W1_arg4 m ρ c]
  rfl

end Cert.KernelIdeal.Middle

end
-- ==== Proof.Relu.lean ====
/-
  The relu region: the result array it leaves.

  Grid point `t` loads rows `10000·t … 10000·t + 9999` of the aggregated messages, takes the larger of each entry
  and zero, and writes the block back as the same rows of the result. Entry by entry that is `GraphConv.relu` of
  the array the region found, read at the block; the ten blocks tile the array.
-/
import proofs.«104583_j21792664060532_1_alg».proof.Proof.Gen.KernelIdeal.Frame
import proofs.«104583_j21792664060532_1_alg».proof.Proof.Spec
import Idealize.ShloMosaic.Lib.Pipeline.Value

set_option maxRecDepth 16384

noncomputable section

namespace Cert.KernelIdeal.Relu

open Cert.KernelIdeal Cert.KernelIdeal.Gen Cert.GraphConv
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The body's stored value at `y`: the larger of the loaded entry and zero (the reshape is to the same shape). -/
theorem pay_apply (x0 : Vec F S10000x128 .f32) (y : S10000x128.Idx) :
    k1_pay1 x0 y = FloatOps.maximumf (x0 y) (FloatOps.ofBits .f32 0x00000000#32) := by
  unfold k1_pay1
  rw [shapeCast_self]
  rfl

-- the TensorCore's buffer contents when the region is entered
variable (V : (c : Dev nD) → (b : Ref sig .tc) → Buf (Elt F) ((c : Thread nD τ).loc b))

/-- The printed index maps over the grid: at point `t` the input's block and the result's block are row block `t`
    (column block 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the rectified array the region found. -/
theorem flushed_eq (c : Dev nD) (t : Fin cfg1.N) :
    (dat1 V c).flushed 1 t = ((cfg1.win 1).blk t).view.read (Elt F)
      (relu (V c main_v13 : S100000x128.Idx → F .f32)) := by
  show (cfg1.win 1).cut (grid1.coords t) ((dat1 V c).after 1 t) = _
  rw [after1_1]
  unfold out1_1
  rw [View.canon_unit_zero hz]
  simp only [View.ld_unit_zero (S := S10000x128) hz]
  obtain ⟨e0, e1, e2, e3⟩ := idx_facts t
  funext y
  show k1_pay1 (iblk1 V c 0 t) y = relu (V c main_v13 : S100000x128.Idx → F .f32) (((cfg1.win 1).blk t).view.emb y)
  refine (pay_apply (iblk1 V c 0 t) y).trans ?_
  show FloatOps.maximumf ((V c main_v13 : S100000x128.Idx → F .f32) (((cfg1.win 0).blk t).view.emb y)) _
    = FloatOps.maximumf ((V c main_v13 : S100000x128.Idx → F .f32) (((cfg1.win 1).blk t).view.emb y)) _
  have h0 : ((cfg1.win 0).blk t).view.emb y = ((cfg1.win 1).blk t).view.emb y := by
    funext a; apply Fin.ext
    match a with
    | ⟨0, _⟩ => show win1_0.index t (0 : Fin 2) * 10000 + 1 * (y 0).val = win1_1.index t (0 : Fin 2) * 10000 + 1 * (y 0).val; omega
    | ⟨1, _⟩ => show win1_0.index t (1 : Fin 2) * 128 + 1 * (y 1).val = win1_1.index t (1 : Fin 2) * 128 + 1 * (y 1).val; omega
  rw [h0]

/-- An index of the result is in point `t`'s block iff each coordinate is in the block's range on its axis. -/
theorem mem_blk (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v14).slice (win1_1.rect t)).set ↔ _
  rw [View.set_slice_whole, Rect.mem_set_unit]
  exact Iff.rfl

/-- Row `r` of the result is written by point `r / 10000`: the ten row blocks tile the array. -/
theorem cover (i : S100000x128.Idx) : ∃ t : Fin cfg1.N, (cfg1.win 1).flush t = true ∧ i ∈ ((cfg1.win 1).blk t).view.set := by
  have hN : cfg1.N = 10 := N_1
  have hi0 : (i 0).val < 100000 := (i 0).isLt
  have hi1 : (i 1).val < 128 := (i 1).isLt
  let t : Fin cfg1.N := ⟨(i 0).val / 10000, by rw [hN]; omega⟩
  obtain ⟨-, -, e2, e3⟩ := idx_facts t
  have ht : t.val = (i 0).val / 10000 := rfl
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 128 ≤ (i 1).val ∧ (i 1).val < win1_1.index t (1 : Fin 2) * 128 + 128; omega

/-- The array the relu region leaves: the rectified aggregate, as the region found it. -/
theorem final (c : Dev nD) : (dat1 V c).arrAt 1 cfg1.N = relu (V c main_v13 : S100000x128.Idx → F .f32) :=
  (dat1 V c).arrAt_eq_of_cover 1 _ (fun t _ => flushed_eq V c t) cover

end Cert.KernelIdeal.Relu

end
-- ==== Proof.KernelValue.lean ====
/-
  The idealized kernel computes the graph convolution.

  The result buffer ends at the last boundary's contents, which are what the relu region leaves: the rectified
  array it found. That array is the aggregate of what the matmul region left, and the matmul region left the support
  of the features and the weight as launched. Composed: `GraphConv.graphConv` of the five argument arrays.
-/
import proofs.«104583_j21792664060532_1_alg».proof.Proof.KernelRun
import proofs.«104583_j21792664060532_1_alg».proof.Proof.Support
import proofs.«104583_j21792664060532_1_alg».proof.Proof.Middle
import proofs.«104583_j21792664060532_1_alg».proof.Proof.Relu

set_option maxRecDepth 16384

noncomputable section

namespace Cert.KernelIdeal.Whole

open Cert.KernelIdeal Cert.KernelIdeal.Gen Cert.GraphConv
open Idealize.ShloMosaic Idealize.ShloMosaic.TcCoe Idealize.SL.Sem

variable (m : (ℓ : Loc nD τ sig) → Buf (Elt Ideal) ℓ) (ρ : Dev nD → PrngReg)

/-- The last boundary's contents at the result: the graph convolution of the launch arrays. -/
theorem result (c : Dev nD) : W3 m ρ c (Proc.devRef .tc main_v14)
    = graphConv (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  -- the result's buffer is the relu region's output array, at what the region leaves
  have e1 : W3 m ρ c (Proc.devRef .tc main_v14) = (dat1 (V2 m ρ) c).arrAt 1 cfg1.N := W3_arr m ρ c 1
  -- which is the rectified array the region found
  have e2 : (dat1 (V2 m ρ) c).arrAt 1 cfg1.N = relu (F := Ideal) (V2 m ρ c main_v13 : S100000x128.Idx → Ideal .f32) :=
    Relu.final (V2 m ρ) c
  -- which is the aggregate of what the matmul region left
  have e3 := Middle.entry m ρ c
  -- which is the support of the features and the weight as launched
  have e4 : W1 m ρ c (Proc.devRef .tc main_v0)
      = support (m ((c.tc : Thread nD τ).loc main_arg0) : S100000x128.Idx → Elt Ideal .f32) (m ((c.tc : Thread nD τ).loc main_arg1) : S128x128.Idx → Elt Ideal .f32) :=
    (W1_arr m ρ c 2).trans (Support.final (V0 m ρ) c)
  rw [e1, e2, e3, e4]
  rfl

/-- The run, read: the result at the graph convolution of the arguments, the arguments unchanged. -/
theorem run_value : θ_run defs (onTc (τ := τ) (main (F := Ideal))) ⟨m, fun _ => 0, ρ⟩ (fun r => ∀ c : Dev nD,
      r.2.mem ((c.tc : Thread nD τ).loc main_v14)
        = graphConv (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (run (F := Ideal) m ρ)

end Cert.KernelIdeal.Whole

end
-- ==== Proof.RefValue.lean ====
/-
  The reference computes the graph convolution.

  Its run ends with the result at the rectifier (the larger of each entry and a zero array) of the aggregate of
  `features · weight` taken as one host product. The rectifier against the zero array is `GraphConv.relu` entry
  by entry, and the stretch between is `GraphConv.aggregate` by definition. On the extended reals the host product
  at (n, j) is the sum over k of features (n, k) times weight (k, j): `GraphConv.support`.
-/
import proofs.«104583_j21792664060532_1_alg».proof.Proof.Gen.ReferenceIdeal.Run
import proofs.«104583_j21792664060532_1_alg».proof.Proof.Gen.ReferenceIdeal.Read
import proofs.«104583_j21792664060532_1_alg».proof.Proof.Aggregate

noncomputable section

namespace Cert.ReferenceIdeal.RefValue

open Cert.ReferenceIdeal Cert.ReferenceIdeal.Gen Cert.GraphConv
open Idealize.ShloMosaic Idealize.ShloMosaic.TcCoe Idealize.SL.Sem

/-- The run's term, for any float values: the rectified aggregate of the host product. -/
theorem term_eq {F : FTy → Type} [FloatOps F] (a0 : (⟨S100000x128, .f32⟩ : BufTy).Contents (Elt F)) (a1 : (⟨S128x128, .f32⟩ : BufTy).Contents (Elt F))
    (a2 : (⟨S1600000, .f32⟩ : BufTy).Contents (Elt F)) (a3 a4 : (⟨S1600000, .i32⟩ : BufTy).Contents (Elt F)) :
    maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a3) (mulf (broadcastInDim S1600000x128 ![0, 1] bcast_S1600000x1_S1600000x128_0_1 (broadcastInDim S1600000x1 ![0] bcast_S1600000_S1600000x1_0 a2)) (Host.gather gather_S100000x128_S1600000x1_S1600000x128_1_0_n_n_0_1_1128 (Host.dotGeneral dot_S100000x128_S128x128_S100000x128_1_0_0_1_n_n none a0 a1) (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4))))) (broadcastInDim S100000x128 ![] bcast_S_S100000x128 (constant S_ .f32 0x00000000#32))
      = relu (aggregate (Host.dotGeneral dot_S100000x128_S128x128_S100000x128_1_0_0_1_n_n none a0 a1) a2 a3 a4) := rfl

/-- On the extended reals the host product is the support: the sum over the input channels. -/
theorem support_eq (a0 : (⟨S100000x128, .f32⟩ : BufTy).Contents (Elt Ideal)) (a1 : (⟨S128x128, .f32⟩ : BufTy).Contents (Elt Ideal)) :
    Host.dotGeneral (F := Ideal) (φ₁ := .f32) (φ₂ := .f32) dot_S100000x128_S128x128_S100000x128_1_0_0_1_n_n none a0 a1 = support a0 a1 := by
  funext i
  have hl : ∀ k, Read.lidx_main_v0 i k = featAt i k := fun k => funext fun a => Fin.ext (by
    match a with
    | ⟨0, _⟩ => rfl
    | ⟨1, _⟩ => rfl)
  have hr : ∀ k, Read.ridx_main_v0 i k = weightAt i k := fun k => funext fun a => Fin.ext (by
    match a with
    | ⟨0, _⟩ => rfl
    | ⟨1, _⟩ => rfl)
  refine (Read.val_main_v0_apply a0 a1 i).trans ?_
  unfold support
  exact Finset.sum_congr rfl fun k _ => by rw [hl, hr]

/-- The reference's result is the graph convolution of its arguments. -/
theorem result (a0 : (⟨S100000x128, .f32⟩ : BufTy).Contents (Elt Ideal)) (a1 : (⟨S128x128, .f32⟩ : BufTy).Contents (Elt Ideal))
    (a2 : (⟨S1600000, .f32⟩ : BufTy).Contents (Elt Ideal)) (a3 a4 : (⟨S1600000, .i32⟩ : BufTy).Contents (Elt Ideal)) :
    maximumf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a3) (mulf (F := Ideal) (broadcastInDim S1600000x128 ![0, 1] bcast_S1600000x1_S1600000x128_0_1 (broadcastInDim S1600000x1 ![0] bcast_S1600000_S1600000x1_0 a2)) (Host.gather gather_S100000x128_S1600000x1_S1600000x128_1_0_n_n_0_1_1128 (Host.dotGeneral (F := Ideal) (φ₁ := .f32) (φ₂ := .f32) dot_S100000x128_S128x128_S100000x128_1_0_0_1_n_n none a0 a1) (broadcastInDim S1600000x1 ![0] bcast_S1600000_S1600000x1_0 (select (cmpi .slt a4 (broadcastInDim S1600000 ![] bcast_S_S1600000 (constantI S_ 32 0#32))) (addi a4 (broadcastInDim S1600000 ![] bcast_S_S1600000 (constantI S_ 32 100000#32))) a4))))) (broadcastInDim S100000x128 ![] bcast_S_S100000x128 (constant (F := Ideal) S_ .f32 0x00000000#32))
      = graphConv a0 a1 a2 a3 a4 :=
  (term_eq a0 a1 a2 a3 a4).trans (congrArg (fun s => relu (aggregate s a2 a3 a4)) (support_eq a0 a1))

end Cert.ReferenceIdeal.RefValue

end
-- ==== Proof.lean ====
/-
  A graph convolution: `relu (A · (X · W))`, the adjacency `A` given by 1.6 million weighted edges.

  The kernel computes the support `X · W` in a Pallas region, ten row blocks of 10000 nodes, each one matrix product
  of bf16-converted operands into an f32 zero accumulator; gathers, scales and scatter-adds the messages on the host;
  and applies the rectifier in a second region, again in ten row blocks. The reference computes the support by one
  host product, performs the same host message passing, and applies the rectifier on the host.

  On the extended reals a change of float format is the identity and a matrix product is the plain sum over the
  contracted axis, so both supports are `∑ k, X (n, k) · W (k, j)` (Proof/Spec.lean, Proof/Support.lean,
  Proof/RefValue.lean). The message passing is the same function of the support in both programs
  (Proof/Aggregate.lean, Proof/Middle.lean), and both rectifiers are the larger of the entry and zero
  (Proof/Relu.lean). Hence both results are `GraphConv.graphConv` of the five argument arrays
  (Proof/KernelValue.lean, Proof/RefValue.lean). No law used needs the inputs to be finite.
-/
import proofs.«104583_j21792664060532_1_alg».proof.Defs
import proofs.«104583_j21792664060532_1_alg».proof.Proof.Gen.Kernel
import proofs.«104583_j21792664060532_1_alg».proof.Proof.Gen.Kernel.Skeleton
import proofs.«104583_j21792664060532_1_alg».proof.Proof.Gen.Kernel.Launch
import proofs.«104583_j21792664060532_1_alg».proof.Proof.Gen.Kernel.Points
import proofs.«104583_j21792664060532_1_alg».proof.Proof.Gen.Kernel.Frame
import proofs.«104583_j21792664060532_1_alg».proof.Proof.Gen.KernelIdeal
import proofs.«104583_j21792664060532_1_alg».proof.Proof.Gen.KernelIdeal.Skeleton
import proofs.«104583_j21792664060532_1_alg».proof.Proof.Gen.KernelIdeal.Launch
import proofs.«104583_j21792664060532_1_alg».proof.Proof.Gen.KernelIdeal.Points
import proofs.«104583_j21792664060532_1_alg».proof.Proof.Gen.KernelIdeal.Frame
import proofs.«104583_j21792664060532_1_alg».proof.Proof.Gen.ReferenceIdeal
import proofs.«104583_j21792664060532_1_alg».proof.Proof.Gen.Pre_finite_inputs
import proofs.«104583_j21792664060532_1_alg».proof.Proof.Gen.ReferenceIdeal.Run
import proofs.«104583_j21792664060532_1_alg».proof.Proof.Gen.ReferenceIdeal.Read
import proofs.«104583_j21792664060532_1_alg».proof.Proof.KernelValue
import proofs.«104583_j21792664060532_1_alg».proof.Proof.RefValue
import Idealize.ShloMosaic.Adequacy
import Idealize.ShloMosaic.Init

noncomputable section

namespace Cert.Proof

open Idealize.ShloMosaic Idealize.ShloMosaic.TcCoe Idealize.SL.Sem Cert.GraphConv

/-- The kernel as printed runs and leaves its arguments alone. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- On the extended reals both programs end with the result at the graph convolution of arguments that agree. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact Cert.ReferenceIdeal.RefValue.result _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
